-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S50000 32) (main_arg1 : IVec S800000 32) (main_arg2 : IVec S800000 32) (main_arg3 : FVec F S50000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S50000 : Shape := ⟨1, ![50000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 100
  | .vmem => 24
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x1, .f32⟩
  | .hbm, ⟨79, _⟩ => ⟨S1x128, .f32⟩
  | .hbm, ⟨80, _⟩ => ⟨S50000x128, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x1, .f32⟩
  | .hbm, ⟨98, _⟩ => ⟨S1x128, .f32⟩
  | .hbm, ⟨99, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000 : Shape := ⟨1, ![50000]⟩
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call4_cst : Ref sig .tc := ⟨.hbm, 118, rfl⟩
abbrev main_call4_v0 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S50000x1_S50000x128_1_0_n_n_0_1_1128_wf : GatherDims.WF S50000x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named: every weakly fair execution of @main terminates, nothing faulting,
  with the result buffer at what the last launch's write-backs leave (the contents of the segment fold at @main's
  return) and the ten argument arrays as launched.
-/
import proofs.«111845_j40192303956494_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's ten segments, the final thread state read against the final memory: the result buffer and
    each argument buffer hold the fold's contents at the return, and an argument's are its launch contents. -/
theorem run_out : θ_run defs (onTc (τ := τ) (main (F := F))) ⟨m, fun _ => 0, ρ⟩ (fun r => ∀ c : Dev nD,
      r.2.mem ((c.tc : Thread nD τ).loc main_v67) = W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v67 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunOut

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.DenseSpec.lean ====
/-
  One dense layer of a graph convolution, on the extended reals, index by index.

  For a neighbour sum `A : [n, K]`, a per-row factor `s : [n, 1]`, a weight matrix `W : [K, d]` and a bias row
  `b : [1, d]`, the layer's entry (r, j) is
      max ( (∑ k, (A (r, k) * s (r, 0)) * W (k, j)) + b (0, j) ,  0 ).
  A vector unit spells it on a block of rows as a product into a zero accumulator of the scaled block (rounded to a
  shorter float format, which on the extended reals is the identity) by the weights, a bias row broadcast down the
  rows, and a maximum against a broadcast zero.  The host spells it on the whole array with a `dot_general`, the factor
  a vector `[n]` laid out as a column and broadcast along the rows, the bias a vector `[d]` laid out as a row and
  broadcast down the rows.  Both are the function above: the sum over the contraction index is a sum in a commutative
  monoid, so its order and tiling do not matter, and no entry is asked to be finite.
  An entry reads one row of `A` and of `s`, which is why a block of rows of the layer is the layer of the block.
-/
import proofs.«111845_j40192303956494_1_alg».proof.Proof.LibDense
import proofs.«111845_j40192303956494_1_alg».proof.Proof.LibBiasRows
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx Cert.LibDense Cert.LibBiasRows

/-- Each row of `A` multiplied by that row's factor `s (r, 0)`. -/
def scaleRows {n K : ℕ} (A : (⟨2, ![n, K]⟩ : Shape).Idx → EReal) (s : (⟨2, ![n, 1]⟩ : Shape).Idx → EReal) :
    (⟨2, ![n, K]⟩ : Shape).Idx → EReal :=
  fun j => A j * s (ix2 (j 0) (0 : Fin 1))

/-- The layer: scaled rows times the weights, plus the bias row, rectified at the zero word's value. -/
def layer {n K d : ℕ} (A : (⟨2, ![n, K]⟩ : Shape).Idx → EReal) (s : (⟨2, ![n, 1]⟩ : Shape).Idx → EReal)
    (W : (⟨2, ![K, d]⟩ : Shape).Idx → EReal) (b : (⟨2, ![1, d]⟩ : Shape).Idx → EReal) : (⟨2, ![n, d]⟩ : Shape).Idx → EReal :=
  fun i => max (prod (scaleRows A s) W i + b (ix2 ⟨0, Nat.one_pos⟩ (i 1))) (Ideal.ofBits .f32 0x00000000#32)

/-- Entry (r, j) of the layer reads row r of the neighbour sum and of the factor: arrays of any heights with those rows
    equal give the same entry. -/
theorem layer_row_congr {n n' K d : ℕ} (A : (⟨2, ![n, K]⟩ : Shape).Idx → EReal) (s : (⟨2, ![n, 1]⟩ : Shape).Idx → EReal)
    (A' : (⟨2, ![n', K]⟩ : Shape).Idx → EReal) (s' : (⟨2, ![n', 1]⟩ : Shape).Idx → EReal)
    (W : (⟨2, ![K, d]⟩ : Shape).Idx → EReal) (b : (⟨2, ![1, d]⟩ : Shape).Idx → EReal)
    (r : Fin n) (r' : Fin n') (j : Fin d)
    (hA : ∀ k : Fin K, A (ix2 r k) = A' (ix2 r' k)) (hs : s (ix2 r (0 : Fin 1)) = s' (ix2 r' (0 : Fin 1))) :
    layer A s W b (ix2 r j) = layer A' s' W b (ix2 r' j) := by
  show max ((∑ k : Fin K, (A (ix2 r k) * s (ix2 r (0 : Fin 1))) * W (ix2 k j)) + b (ix2 ⟨0, Nat.one_pos⟩ j)) _
      = max ((∑ k : Fin K, (A' (ix2 r' k) * s' (ix2 r' (0 : Fin 1))) * W (ix2 k j)) + b (ix2 ⟨0, Nat.one_pos⟩ j)) _
  rw [hs, Finset.sum_congr rfl (fun k _ => congrArg (fun a => (a * s' (ix2 r' (0 : Fin 1))) * W (ix2 k j)) (hA k))]

/-- The same at any two indices, the weights and the bias row allowed to differ too: an entry reads row `i 0` of the
    neighbour sum and of the factor, column `i 1` of the weights and of the bias row. -/
theorem layer_congr {n n' K d : ℕ} (A : (⟨2, ![n, K]⟩ : Shape).Idx → EReal) (s : (⟨2, ![n, 1]⟩ : Shape).Idx → EReal)
    (A' : (⟨2, ![n', K]⟩ : Shape).Idx → EReal) (s' : (⟨2, ![n', 1]⟩ : Shape).Idx → EReal)
    (W W' : (⟨2, ![K, d]⟩ : Shape).Idx → EReal) (b b' : (⟨2, ![1, d]⟩ : Shape).Idx → EReal)
    (i : (⟨2, ![n, d]⟩ : Shape).Idx) (i' : (⟨2, ![n', d]⟩ : Shape).Idx)
    (hA : ∀ k : Fin K, A (ix2 (i 0) k) = A' (ix2 (i' 0) k)) (hs : s (ix2 (i 0) (0 : Fin 1)) = s' (ix2 (i' 0) (0 : Fin 1)))
    (hW : ∀ k : Fin K, W (ix2 k (i 1)) = W' (ix2 k (i' 1)))
    (hb : b (ix2 ⟨0, Nat.one_pos⟩ (i 1)) = b' (ix2 ⟨0, Nat.one_pos⟩ (i' 1))) :
    layer A s W b i = layer A' s' W' b' i' := by
  show max ((∑ k : Fin K, (A (ix2 (i 0) k) * s (ix2 (i 0) (0 : Fin 1))) * W (ix2 k (i 1))) + b (ix2 ⟨0, Nat.one_pos⟩ (i 1))) _
      = max ((∑ k : Fin K, (A' (ix2 (i' 0) k) * s' (ix2 (i' 0) (0 : Fin 1))) * W' (ix2 k (i' 1))) + b' (ix2 ⟨0, Nat.one_pos⟩ (i' 1))) _
  rw [hs, hb, Finset.sum_congr rfl (fun k _ => congrArg₂ (fun a w => (a * s' (ix2 (i' 0) (0 : Fin 1))) * w) (hA k) (hW k))]

/-! ## Layout operations read at an index -/

/-- A column `[a, 1]` broadcast along the rows to `[a, b]`, at an index, is the column's entry of that row. -/
theorem col_broadcast {α : Type} {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  refine broadcastTo_apply v h j (ix2 (j 0) (0 : Fin 1)) fun ax => ?_
  match ax with
  | ⟨0, _⟩ =>
    show (j 0).val = if a = 1 then 0 else (j 0).val
    have hlt : (j 0).val < a := idx2_lt0 j
    split
    · omega
    · rfl
  | ⟨1, _⟩ => rfl

/-- A vector `[a]` laid out as a column `[a, 1]`, at (r, 0), is the vector at r. -/
theorem col_of_vector {α : Type} {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The host's column: a vector `[a]` placed along axis 0 of `[a, 1]`, at (r, 0), is the vector at r. -/
theorem col_inDim {α : Type} {a : ℕ} (v : (⟨1, ![a]⟩ : Shape).Idx → α)
    (h : (⟨1, ![a]⟩ : Shape).BroadcastsInDim ⟨2, ![a, 1]⟩ ![0]) (j : (⟨2, ![a, 1]⟩ : Shape).Idx) :
    broadcastInDim ⟨2, ![a, 1]⟩ ![0] h v j = v (ix1 (j 0)) := by
  refine broadcastInDim_apply _ h v j (ix1 (j 0)) fun ax => ?_
  match ax with
  | ⟨0, _⟩ =>
    show (j 0).val = if a = 1 then 0 else (j 0).val
    have hlt : (j 0).val < a := idx2_lt0 j
    split
    · omega
    · rfl

/-- The host's column broadcast along the rows: `[a, 1]` to `[a, b]` on axes (0, 1). -/
theorem col_broadcast_inDim {α : Type} {a b : ℕ} (v : (⟨2, ![a, 1]⟩ : Shape).Idx → α)
    (h : (⟨2, ![a, 1]⟩ : Shape).BroadcastsInDim ⟨2, ![a, b]⟩ ![0, 1]) (j : (⟨2, ![a, b]⟩ : Shape).Idx) :
    broadcastInDim ⟨2, ![a, b]⟩ ![0, 1] h v j = v (ix2 (j 0) (0 : Fin 1)) := by
  refine broadcastInDim_apply _ h v j (ix2 (j 0) (0 : Fin 1)) fun ax => ?_
  match ax with
  | ⟨0, _⟩ =>
    show (j 0).val = if a = 1 then 0 else (j 0).val
    have hlt : (j 0).val < a := idx2_lt0 j
    split
    · omega
    · rfl
  | ⟨1, _⟩ => rfl

/-- The host's row: a vector `[d]` placed along axis 1 of `[1, d]`, at (0, j), is the vector at j. -/
theorem row_inDim {α : Type} {d : ℕ} (v : (⟨1, ![d]⟩ : Shape).Idx → α)
    (h : (⟨1, ![d]⟩ : Shape).BroadcastsInDim ⟨2, ![1, d]⟩ ![1]) (j : (⟨2, ![1, d]⟩ : Shape).Idx) :
    broadcastInDim ⟨2, ![1, d]⟩ ![1] h v j = v (ix1 (j 1)) := by
  refine broadcastInDim_apply _ h v j (ix1 (j 1)) fun ax => ?_
  match ax with
  | ⟨0, _⟩ =>
    show (j 1).val = if d = 1 then 0 else (j 1).val
    have hlt : (j 1).val < d := idx2_lt1 j
    split
    · omega
    · rfl

/-- The host's row broadcast down the rows: `[1, d]` to `[n, d]` on axes (0, 1). -/
theorem row_broadcast_inDim {α : Type} {n d : ℕ} (v : (⟨2, ![1, d]⟩ : Shape).Idx → α)
    (h : (⟨2, ![1, d]⟩ : Shape).BroadcastsInDim ⟨2, ![n, d]⟩ ![0, 1]) (j : (⟨2, ![n, d]⟩ : Shape).Idx) :
    broadcastInDim ⟨2, ![n, d]⟩ ![0, 1] h v j = v (ix2 ⟨0, Nat.one_pos⟩ (j 1)) := by
  refine broadcastInDim_apply _ h v j (ix2 ⟨0, Nat.one_pos⟩ (j 1)) fun ax => ?_
  match ax with
  | ⟨0, _⟩ => exact (if_pos rfl).symm
  | ⟨1, _⟩ =>
    show (j 1).val = if d = 1 then 0 else (j 1).val
    have hlt : (j 1).val < d := idx2_lt1 j
    split
    · omega
    · rfl

/-! ## The two spellings -/

/-- The vector unit's spelling on a block of n rows, at an entry. -/
theorem vec_layer {n K d : ℕ} (x0 : FVec Ideal ⟨2, ![n, K]⟩ .f32) (x1 : FVec Ideal ⟨2, ![n, 1]⟩ .f32)
    (x2 : FVec Ideal ⟨2, ![K, d]⟩ .f32) (x3 : FVec Ideal ⟨2, ![1, d]⟩ .f32)
    (h0 : (⟨2, ![n, K]⟩ : Shape).ShapeCasts ⟨2, ![n, K]⟩) (h1 : (⟨2, ![n, 1]⟩ : Shape).ShapeCasts ⟨2, ![n, 1]⟩)
    (hb1 : (⟨2, ![n, 1]⟩ : Shape).Broadcasts ⟨2, ![n, K]⟩) (h3 : (⟨2, ![1, d]⟩ : Shape).ShapeCasts ⟨2, ![1, d]⟩)
    (hb3 : (⟨2, ![1, d]⟩ : Shape).Broadcasts ⟨2, ![n, d]⟩) (ht : FTy.bf16.bits < FTy.f32.bits)
    (i : (⟨2, ![n, d]⟩ : Shape).Idx) :
    maximumf (addf (matmul (DotDims.plain n K d) none
          (truncf .bf16 (mulf (shapeCast ⟨2, ![n, K]⟩ x0 h0) (broadcastTo ⟨2, ![n, K]⟩ (shapeCast ⟨2, ![n, 1]⟩ x1 h1) hb1)) ht)
          (truncf .bf16 x2 ht) (constant (F := Ideal) ⟨2, ![n, d]⟩ .f32 0x00000000#32))
        (broadcastTo ⟨2, ![n, d]⟩ (shapeCast ⟨2, ![1, d]⟩ x3 h3) hb3))
      (broadcast ⟨2, ![n, d]⟩ (Scalar.ofBits (F := Ideal) .f32 0x00000000#32)) i = layer x0 x1 x2 x3 i := by
  rw [shapeCast_self, shapeCast_self, shapeCast_self]
  show max (matmul (DotDims.plain n K d) none (fun j => x0 j * broadcastTo ⟨2, ![n, K]⟩ x1 hb1 j) x2
        (constant (F := Ideal) ⟨2, ![n, d]⟩ .f32 0x00000000#32) i + broadcastTo ⟨2, ![n, d]⟩ x3 hb3 i) _
      = max (prod (scaleRows x0 x1) x2 i + x3 (ix2 ⟨0, Nat.one_pos⟩ (i 1))) _
  rw [row_broadcast x3 hb3 i]
  refine congrArg (fun t => max (t + x3 (ix2 ⟨0, Nat.one_pos⟩ (i 1))) _) ?_
  refine (matmul_plain (φ₁ := .f32) (φ₂ := .f32) _ x2 i).trans ?_
  unfold prod scaleRows
  refine Finset.sum_congr rfl fun k _ => ?_
  exact congrArg (fun t => x0 (ix2 (i 0) k) * t * x2 (ix2 k (i 1))) (col_broadcast x1 hb1 (ix2 (i 0) k))

/-- The host's spelling on the whole array, at an entry: the factor a vector laid out as a column, the bias a vector laid
    out as a row. -/
theorem host_layer {n K d : ℕ} (A : (⟨2, ![n, K]⟩ : Shape).Idx → EReal) (q : (⟨1, ![n]⟩ : Shape).Idx → EReal)
    (W : (⟨2, ![K, d]⟩ : Shape).Idx → EReal) (b : (⟨1, ![d]⟩ : Shape).Idx → EReal)
    (hc1 : (⟨1, ![n]⟩ : Shape).BroadcastsInDim ⟨2, ![n, 1]⟩ ![0])
    (hc2 : (⟨2, ![n, 1]⟩ : Shape).BroadcastsInDim ⟨2, ![n, K]⟩ ![0, 1])
    (hr1 : (⟨1, ![d]⟩ : Shape).BroadcastsInDim ⟨2, ![1, d]⟩ ![1])
    (hr2 : (⟨2, ![1, d]⟩ : Shape).BroadcastsInDim ⟨2, ![n, d]⟩ ![0, 1])
    (hz : (⟨0, ![]⟩ : Shape).BroadcastsInDim ⟨2, ![n, d]⟩ ![])
    (hs1 : (⟨1, ![n]⟩ : Shape).ShapeCasts ⟨2, ![n, 1]⟩) (hs3 : (⟨1, ![d]⟩ : Shape).ShapeCasts ⟨2, ![1, d]⟩)
    (i : (⟨2, ![n, d]⟩ : Shape).Idx) :
    maximumf (addf (Host.dotGeneral (F := Ideal) (φ₁ := .f32) (φ₂ := .f32) (DotDims.plain n K d) none
          (mulf A (broadcastInDim ⟨2, ![n, K]⟩ ![0, 1] hc2 (broadcastInDim ⟨2, ![n, 1]⟩ ![0] hc1 q))) W)
        (broadcastInDim ⟨2, ![n, d]⟩ ![0, 1] hr2 (broadcastInDim ⟨2, ![1, d]⟩ ![1] hr1 b)))
      (broadcastInDim ⟨2, ![n, d]⟩ ![] hz (constant (F := Ideal) ⟨0, ![]⟩ .f32 0x00000000#32)) i
      = layer A (shapeCast ⟨2, ![n, 1]⟩ q hs1) W (shapeCast ⟨2, ![1, d]⟩ b hs3) i := by
  show max (Host.dotGeneral (F := Ideal) (φ₁ := .f32) (φ₂ := .f32) (DotDims.plain n K d) none
          (fun j => A j * broadcastInDim ⟨2, ![n, K]⟩ ![0, 1] hc2 (broadcastInDim ⟨2, ![n, 1]⟩ ![0] hc1 q) j) W i
        + broadcastInDim ⟨2, ![n, d]⟩ ![0, 1] hr2 (broadcastInDim ⟨2, ![1, d]⟩ ![1] hr1 b) i)
        (broadcastInDim ⟨2, ![n, d]⟩ ![] hz (constant (F := Ideal) ⟨0, ![]⟩ .f32 0x00000000#32) i)
      = max (prod (scaleRows A (shapeCast ⟨2, ![n, 1]⟩ q hs1)) W i + shapeCast ⟨2, ![1, d]⟩ b hs3 (ix2 ⟨0, Nat.one_pos⟩ (i 1))) _
  rw [row_broadcast_inDim, row_inDim, row_of_vector b hs3 (i 1)]
  refine congrArg₂ max (congrArg (· + b (ix1 (i 1))) ?_) rfl
  simp only [Host.dotGeneral]
  refine (dotGeneral_plain _ _ W i).trans ?_
  unfold prod scaleRows
  refine Finset.sum_congr rfl fun k _ => ?_
  exact congrArg (fun t => A (ix2 (i 0) k) * t * W (ix2 k (i 1)))
    (((col_broadcast_inDim _ hc2 (ix2 (i 0) k)).trans (col_inDim q hc1 _)).trans (col_of_vector q hs1 _ _).symm)

end Cert.Gcn

end
-- ==== Proof.KBlock.lean ====
/-
  What one grid point's body stores, on the extended reals: the dense layer of the blocks it loaded.  The three
  launches run the same body, so their payloads are one function.
-/
import proofs.«111845_j40192303956494_1_alg».proof.Proof.Gen.KernelIdeal.Skeleton
import proofs.«111845_j40192303956494_1_alg».proof.Proof.DenseSpec

noncomputable section

namespace Cert.Gcn

open Idealize.ShloMosaic Idealize.ShloMosaic.ValueIdx Cert.KernelIdeal Cert.KernelIdeal.Gen

/-- The first launch's stored value is the layer of its four loaded blocks: a block of 2000 rows of the neighbour sum,
    the matching 2000 entries of the destination norm as a column, the whole weight matrix and the bias row. -/
theorem pay0_eq (x0 : Vec Ideal S2000x128 .f32) (x1 : Vec Ideal S2000x1 .f32) (x2 : Vec Ideal S128x128 .f32)
    (x3 : Vec Ideal S1x128 .f32) :
    k0_pay1 (F := Ideal) x0 x1 x2 x3 = layer (n := 2000) (K := 128) (d := 128) x0 x1 x2 x3 := by
  funext i
  unfold k0_pay1
  exact vec_layer (n := 2000) (K := 128) (d := 128) x0 x1 x2 x3 _ _ _ _ _ _ i

/-- The second and third launches store the same function of their blocks. -/
theorem pay1_eq (x0 : Vec Ideal S2000x128 .f32) (x1 : Vec Ideal S2000x1 .f32) (x2 : Vec Ideal S128x128 .f32)
    (x3 : Vec Ideal S1x128 .f32) :
    k1_pay1 (F := Ideal) x0 x1 x2 x3 = layer (n := 2000) (K := 128) (d := 128) x0 x1 x2 x3 :=
  pay0_eq x0 x1 x2 x3

theorem pay2_eq (x0 : Vec Ideal S2000x128 .f32) (x1 : Vec Ideal S2000x1 .f32) (x2 : Vec Ideal S128x128 .f32)
    (x3 : Vec Ideal S1x128 .f32) :
    k2_pay1 (F := Ideal) x0 x1 x2 x3 = layer (n := 2000) (K := 128) (d := 128) x0 x1 x2 x3 :=
  pay0_eq x0 x1 x2 x3

end Cert.Gcn

end
-- ==== Proof.Region0.lean ====
/-
  The first launch, read as a value: whatever the arrays hold when the launch is entered, the output array ends holding
  the dense layer of the whole input arrays.

  The grid has 25 points; point t stages rows 2000·t … 2000·t + 1999 of the neighbour sum and of the norm column, the
  whole weight matrix and the whole bias row, and writes back rows 2000·t … 2000·t + 1999 of the output.  An entry of
  the layer reads one row of the neighbour sum and of the norm column, so what a point writes back is that block of rows
  of the layer of the whole arrays; the 25 blocks cover the 50000 rows.
-/
import proofs.«111845_j40192303956494_1_alg».proof.Proof.Gen.KernelIdeal.Frame
import proofs.«111845_j40192303956494_1_alg».proof.Proof.KBlock
import Idealize.ShloMosaic.Lib.Pipeline.Value

noncomputable section

namespace Cert.Gcn.R0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the arrays the launch finds. -/
abbrev whole (c : Dev nD) : S50000x128.Idx → EReal :=
  layer (n := 50000) (K := 128) (d := 128) (V c main_v32 : S50000x128.Idx → EReal) (V c main_v33 : S50000x1.Idx → EReal)
    (V c main_arg4 : S128x128.Idx → EReal) (V c main_v34 : S1x128.Idx → EReal)

/-- The printed index maps over the 25 points: rows move with the point, everything else stays at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the layer of the whole arrays. -/
theorem flushed_eq (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero origin]
  simp only [View.ld_unit_zero (S := S2000x128) origin, View.ld_unit_zero (S := S2000x1) origin,
    View.ld_unit_zero (S := S128x128) origin, View.ld_unit_zero (S := S1x128) origin]
  rw [pay0_eq]
  obtain ⟨e00, e01, e10, e11, e20, e21, e30, e31, e40, e41⟩ := index_maps t
  funext j
  show layer (n := 2000) (K := 128) (d := 128)
      (fun y => (V c main_v32 : S50000x128.Idx → EReal) (((cfg0.win 0).blk t).view.emb y))
      (fun y => (V c main_v33 : S50000x1.Idx → EReal) (((cfg0.win 1).blk t).view.emb y))
      (fun y => (V c main_arg4 : S128x128.Idx → EReal) (((cfg0.win 2).blk t).view.emb y))
      (fun y => (V c main_v34 : S1x128.Idx → EReal) (((cfg0.win 3).blk t).view.emb y)) j
    = whole V c (((cfg0.win 4).blk t).view.emb j)
  have hj0 : (j 0).val < 2000 := (j 0).isLt
  have hj1 : (j 1).val < 128 := (j 1).isLt
  refine layer_congr _ _ _ _ _ _ _ _ j _
    (fun k => congrArg (V c main_v32 : S50000x128.Idx → EReal) (funext fun a => Fin.ext ?_))
    (congrArg (V c main_v33 : S50000x1.Idx → EReal) (funext fun a => Fin.ext ?_))
    (fun k => congrArg (V c main_arg4 : S128x128.Idx → EReal) (funext fun a => Fin.ext ?_))
    (congrArg (V c main_v34 : S1x128.Idx → EReal) (funext fun a => Fin.ext ?_))
  · match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · match a with
    | ⟨0, _⟩ => show win0_1.index t (0 : Fin 2) * 2000 + 1 * (j 0).val = win0_4.index t (0 : Fin 2) * 2000 + 1 * (j 0).val; omega
    | ⟨1, _⟩ => show win0_1.index t (1 : Fin 2) * 1 + 1 * 0 = 0; omega
  · match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  · match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

/-- An index of the output array is in point t's block iff its row is among the block's 2000 rows. -/
theorem mem_blk (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v35).slice (win0_4.rect t)).set ↔ _
  rw [View.set_slice_whole, Rect.mem_set_unit]
  exact Iff.rfl

/-- Every row is in some point's block: row r in point r / 2000's. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_4 _, ?_⟩
  rw [mem_blk]
  obtain ⟨e00, e01, e10, e11, e20, e21, e30, e31, e40, e41⟩ := index_maps ⟨(i 0).val / 2000, hlt⟩
  have e40' : win0_4.index ⟨(i 0).val / 2000, hlt⟩ (0 : Fin 2) = (i 0).val / 2000 := e40
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    omega
  | ⟨1, _⟩ =>
    show win0_4.index ⟨(i 0).val / 2000, hlt⟩ (1 : Fin 2) * 128 ≤ (i 1).val ∧ (i 1).val < win0_4.index ⟨(i 0).val / 2000, hlt⟩ (1 : Fin 2) * 128 + 128
    omega

/-- The output array after the launch is the layer of the arrays the launch found. -/
theorem final (c : Dev nD) : (dat0 V c).arrAt 4 cfg0.N = whole V c :=
  (dat0 V c).arrAt_eq_of_cover 4 (whole V c) (fun t _ => flushed_eq V c t) cover

end Cert.Gcn.R0

end
-- ==== Proof.Region1.lean ====
/-
  The second launch, read as a value: whatever the arrays hold when the launch is entered, the output array ends holding
  the dense layer of the whole input arrays.

  The grid has 25 points; point t stages rows 2000·t … 2000·t + 1999 of the neighbour sum and of the norm column, the
  whole weight matrix and the whole bias row, and writes back rows 2000·t … 2000·t + 1999 of the output.  An entry of
  the layer reads one row of the neighbour sum and of the norm column, so what a point writes back is that block of rows
  of the layer of the whole arrays; the 25 blocks cover the 50000 rows.
-/
import proofs.«111845_j40192303956494_1_alg».proof.Proof.Gen.KernelIdeal.Frame
import proofs.«111845_j40192303956494_1_alg».proof.Proof.KBlock
import Idealize.ShloMosaic.Lib.Pipeline.Value

noncomputable section

namespace Cert.Gcn.R1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the arrays the launch finds. -/
abbrev whole (c : Dev nD) : S50000x128.Idx → EReal :=
  layer (n := 50000) (K := 128) (d := 128) (V c main_v48 : S50000x128.Idx → EReal) (V c main_v49 : S50000x1.Idx → EReal)
    (V c main_arg6 : S128x128.Idx → EReal) (V c main_v50 : S1x128.Idx → EReal)

/-- The printed index maps over the 25 points: rows move with the point, everything else stays at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer of the whole arrays. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S128x128) origin, View.ld_unit_zero (S := S1x128) origin]
  rw [pay1_eq]
  obtain ⟨e00, e01, e10, e11, e20, e21, e30, e31, e40, e41⟩ := index_maps t
  funext j
  show layer (n := 2000) (K := 128) (d := 128)
      (fun y => (V c main_v48 : S50000x128.Idx → EReal) (((cfg1.win 0).blk t).view.emb y))
      (fun y => (V c main_v49 : S50000x1.Idx → EReal) (((cfg1.win 1).blk t).view.emb y))
      (fun y => (V c main_arg6 : S128x128.Idx → EReal) (((cfg1.win 2).blk t).view.emb y))
      (fun y => (V c main_v50 : S1x128.Idx → EReal) (((cfg1.win 3).blk t).view.emb y)) j
    = whole V c (((cfg1.win 4).blk t).view.emb j)
  have hj0 : (j 0).val < 2000 := (j 0).isLt
  have hj1 : (j 1).val < 128 := (j 1).isLt
  refine layer_congr _ _ _ _ _ _ _ _ j _
    (fun k => congrArg (V c main_v48 : S50000x128.Idx → EReal) (funext fun a => Fin.ext ?_))
    (congrArg (V c main_v49 : S50000x1.Idx → EReal) (funext fun a => Fin.ext ?_))
    (fun k => congrArg (V c main_arg6 : S128x128.Idx → EReal) (funext fun a => Fin.ext ?_))
    (congrArg (V c main_v50 : S1x128.Idx → EReal) (funext fun a => Fin.ext ?_))
  · match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  · match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  · match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  · match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point t's block iff its row is among the block's 2000 rows. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v51).slice (win1_4.rect t)).set ↔ _
  rw [View.set_slice_whole, Rect.mem_set_unit]
  exact Iff.rfl

/-- Every row is in some point's block: row r in point r / 2000's. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have hlt : (i 0).val / 2000 < cfg1.N := by rw [hN]; omega
  refine ⟨⟨(i 0).val / 2000, hlt⟩, flush1_4 _, ?_⟩
  rw [mem_blk]
  obtain ⟨e00, e01, e10, e11, e20, e21, e30, e31, e40, e41⟩ := index_maps ⟨(i 0).val / 2000, hlt⟩
  have e40' : win1_4.index ⟨(i 0).val / 2000, hlt⟩ (0 : Fin 2) = (i 0).val / 2000 := e40
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    omega

/-- The output array after the launch is the layer of the arrays the launch found. -/
theorem final (c : Dev nD) : (dat1 V c).arrAt 4 cfg1.N = whole V c :=
  (dat1 V c).arrAt_eq_of_cover 4 (whole V c) (fun t _ => flushed_eq V c t) cover

end Cert.Gcn.R1

end
-- ==== Proof.Region2.lean ====
/-
  The third launch, read as a value: whatever the arrays hold when the launch is entered, the output array ends holding
  the dense layer of the whole input arrays.

  The grid has 25 points; point t stages rows 2000·t … 2000·t + 1999 of the neighbour sum and of the norm column, the
  whole weight matrix and the whole bias row, and writes back rows 2000·t … 2000·t + 1999 of the output.  An entry of
  the layer reads one row of the neighbour sum and of the norm column, so what a point writes back is that block of rows
  of the layer of the whole arrays; the 25 blocks cover the 50000 rows.
-/
import proofs.«111845_j40192303956494_1_alg».proof.Proof.Gen.KernelIdeal.Frame
import proofs.«111845_j40192303956494_1_alg».proof.Proof.KBlock
import Idealize.ShloMosaic.Lib.Pipeline.Value

noncomputable section

namespace Cert.Gcn.R2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the arrays the launch finds. -/
abbrev whole (c : Dev nD) : S50000x128.Idx → EReal :=
  layer (n := 50000) (K := 128) (d := 128) (V c main_v64 : S50000x128.Idx → EReal) (V c main_v65 : S50000x1.Idx → EReal)
    (V c main_arg8 : S128x128.Idx → EReal) (V c main_v66 : S1x128.Idx → EReal)

/-- The printed index maps over the 25 points: rows move with the point, everything else stays at block 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the layer of the whole arrays. -/
theorem flushed_eq (c : Dev nD) (t : Fin cfg2.N) :
    (dat2 V c).flushed 4 t = ((cfg2.win 4).blk t).view.read (Elt Ideal) (whole V c) := by
  show (cfg2.win 4).cut (grid2.coords t) ((dat2 V c).after 4 t) = _
  rw [after2_4]
  unfold out2_4
  rw [View.canon_unit_zero origin]
  simp only [View.ld_unit_zero (S := S2000x128) origin, View.ld_unit_zero (S := S2000x1) origin,
    View.ld_unit_zero (S := S128x128) origin, View.ld_unit_zero (S := S1x128) origin]
  rw [pay2_eq]
  obtain ⟨e00, e01, e10, e11, e20, e21, e30, e31, e40, e41⟩ := index_maps t
  funext j
  show layer (n := 2000) (K := 128) (d := 128)
      (fun y => (V c main_v64 : S50000x128.Idx → EReal) (((cfg2.win 0).blk t).view.emb y))
      (fun y => (V c main_v65 : S50000x1.Idx → EReal) (((cfg2.win 1).blk t).view.emb y))
      (fun y => (V c main_arg8 : S128x128.Idx → EReal) (((cfg2.win 2).blk t).view.emb y))
      (fun y => (V c main_v66 : S1x128.Idx → EReal) (((cfg2.win 3).blk t).view.emb y)) j
    = whole V c (((cfg2.win 4).blk t).view.emb j)
  have hj0 : (j 0).val < 2000 := (j 0).isLt
  have hj1 : (j 1).val < 128 := (j 1).isLt
  refine layer_congr _ _ _ _ _ _ _ _ j _
    (fun k => congrArg (V c main_v64 : S50000x128.Idx → EReal) (funext fun a => Fin.ext ?_))
    (congrArg (V c main_v65 : S50000x1.Idx → EReal) (funext fun a => Fin.ext ?_))
    (fun k => congrArg (V c main_arg8 : S128x128.Idx → EReal) (funext fun a => Fin.ext ?_))
    (congrArg (V c main_v66 : S1x128.Idx → EReal) (funext fun a => Fin.ext ?_))
  · match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * k.val = k.val; omega
  · match a with
    | ⟨0, _⟩ => show win2_1.index t (0 : Fin 2) * 2000 + 1 * (j 0).val = win2_4.index t (0 : Fin 2) * 2000 + 1 * (j 0).val; omega
    | ⟨1, _⟩ => show win2_1.index t (1 : Fin 2) * 1 + 1 * 0 = 0; omega
  · match a with
    | ⟨0, _⟩ => show win2_2.index t (0 : Fin 2) * 128 + 1 * k.val = k.val; omega
    | ⟨1, _⟩ => show win2_2.index t (1 : Fin 2) * 128 + 1 * (j 1).val = win2_4.index t (1 : Fin 2) * 128 + 1 * (j 1).val; omega
  · match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega

/-- An index of the output array is in point t's block iff its row is among the block's 2000 rows. -/
theorem mem_blk (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v67).slice (win2_4.rect t)).set ↔ _
  rw [View.set_slice_whole, Rect.mem_set_unit]
  exact Iff.rfl

/-- Every row is in some point's block: row r in point r / 2000's. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_4 _, ?_⟩
  rw [mem_blk]
  obtain ⟨e00, e01, e10, e11, e20, e21, e30, e31, e40, e41⟩ := index_maps ⟨(i 0).val / 2000, hlt⟩
  have e40' : win2_4.index ⟨(i 0).val / 2000, hlt⟩ (0 : Fin 2) = (i 0).val / 2000 := e40
  intro a
  match a with
  | ⟨0, _⟩ =>
    show win2_4.index ⟨(i 0).val / 2000, hlt⟩ (0 : Fin 2) * 2000 ≤ (i 0).val ∧ (i 0).val < win2_4.index ⟨(i 0).val / 2000, hlt⟩ (0 : Fin 2) * 2000 + 2000
    omega
  | ⟨1, _⟩ =>
    show win2_4.index ⟨(i 0).val / 2000, hlt⟩ (1 : Fin 2) * 128 ≤ (i 1).val ∧ (i 1).val < win2_4.index ⟨(i 0).val / 2000, hlt⟩ (1 : Fin 2) * 128 + 128
    omega

/-- The output array after the launch is the layer of the arrays the launch found. -/
theorem final (c : Dev nD) : (dat2 V c).arrAt 4 cfg2.N = whole V c :=
  (dat2 V c).arrAt_eq_of_cover 4 (whole V c) (fun t _ => flushed_eq V c t) cover

end Cert.Gcn.R2

end
-- ==== Proof.HostSpec.lean ====
/-
  The host-side pieces of a three-layer graph convolution that the kernel's program and the reference spell with the
  same operations: the embedding lookup, the symmetric degree normalisation, and one layer's message passing (source
  rows scaled by the source norm, gathered along the edges and summed into the destination rows).  They are named here
  once, as functions of the argument arrays, so that both programs' results can be stated over them and neither a
  gather nor a scatter is ever opened.
-/
import proofs.«111845_j40192303956494_1_alg».proof.Proof.Gen.KernelIdeal

noncomputable section

namespace Cert.Gcn

open Idealize.ShloMosaic Cert.KernelIdeal Cert.KernelIdeal.Gen

variable {F : FTy → Type} [FloatOps F]

/-- `emb[batch]`: the rows of the embedding table at the node ids, a negative id counted from the end. -/
def embed (emb : (⟨S50000x128, .f32⟩ : BufTy).Contents (Elt F)) (batch : (⟨S50000, .i32⟩ : BufTy).Contents (Elt F)) :
    (⟨S50000x128, .f32⟩ : BufTy).Contents (Elt F) :=
  Host.gather gather_S50000x128_S50000x1_S50000x128_1_0_n_n_0_1_1128 emb (broadcastInDim S50000x1 ![0] bcast_S50000_S50000x1_0 (select (cmpi .slt batch (broadcastInDim S50000 ![] bcast_S_S50000 (constantI S_ 32 0#32))) (addi batch (broadcastInDim S50000 ![] bcast_S_S50000 (constantI S_ 32 50000#32))) batch))

/-- `max(degree, 1) ^ (-1/2)` per node, the degree the number of edges whose end `idx` is the node. -/
def normOf (idx : (⟨S800000, .i32⟩ : BufTy).Contents (Elt F)) : (⟨S50000, .f32⟩ : BufTy).Contents (Elt F) :=
  Host.powf (maximumf (broadcastInDim S50000 ![] bcast_S_S50000 (id (constant (F := F) S_ .f32 0x3F800000#32))) (Host.scatterAdd scatter_S50000_S800000x1_S800000_n_0_0_1 (broadcastInDim S50000 ![] bcast_S_S50000 (constant (F := F) S_ .f32 0x00000000#32)) (broadcastInDim S800000x1 ![0] bcast_S800000_S800000x1_0 idx) (broadcastInDim S800000 ![] bcast_S_S800000 (constant (F := F) S_ .f32 0x3F800000#32)))) (broadcastInDim S50000 ![] bcast_S_S50000 (constant (F := F) S_ .f32 0xBF000000#32))

/-- One layer's aggregation: `segment_sum((h * ns[:, None])[src], dst)`. -/
def aggOf (h : (⟨S50000x128, .f32⟩ : BufTy).Contents (Elt F)) (ns : (⟨S50000, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 (broadcastInDim S50000x1 ![0] bcast_S50000_S50000x1_0 ns))) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

end Cert.Gcn

end
-- ==== Proof.Fold.lean ====
/-
  The host operations of the kernel's program, one stretch at a time, as functions of whatever the buffers held before
  the stretch: the stretch before the first launch computes the embedding lookup, both degree norms and the first
  layer's aggregation; the stretch before each later launch computes that layer's aggregation from the previous
  launch's output; each lays the destination norm out as a column and the layer's bias as a row.  Buffers a stretch
  does not write keep their contents.
-/
import proofs.«111845_j40192303956494_1_alg».proof.Proof.Gen.KernelIdeal.Launch
import proofs.«111845_j40192303956494_1_alg».proof.Proof.HostSpec
import Idealize.ShloMosaic.Lib.StableHlo.Run

noncomputable section

namespace Cert.Gcn.Fold

open Cert.KernelIdeal Cert.KernelIdeal.Gen Idealize.ShloMosaic Idealize.ShloMosaic.TcCoe Idealize.SL.Sem
open Idealize.ShloMosaic.StableHlo Cert.Gcn

variable {F : FTy → Type} [FloatOps F]

/-! ## Before the first launch -/

set_option maxHeartbeats 4000000 in
theorem pre_v32 (Wp : Valuation τ sig (Elt F)) :
    StableHlo.after hostOps0_4 (StableHlo.after hostOps0_3 (StableHlo.after hostOps0_2 (StableHlo.after hostOps0_1 (StableHlo.after hostOps0 Wp)))) (Proc.devRef .tc main_v32)
      = aggOf (embed (Wp (Proc.devRef .tc main_arg3)) (Wp (Proc.devRef .tc main_arg0))) (normOf (Wp (Proc.devRef .tc main_arg1))) (Wp (Proc.devRef .tc main_arg1)) (Wp (Proc.devRef .tc main_arg2)) := by
  after_results_simp
  rfl

set_option maxHeartbeats 4000000 in
theorem pre_v33 (Wp : Valuation τ sig (Elt F)) :
    StableHlo.after hostOps0_4 (StableHlo.after hostOps0_3 (StableHlo.after hostOps0_2 (StableHlo.after hostOps0_1 (StableHlo.after hostOps0 Wp)))) (Proc.devRef .tc main_v33)
      = shapeCast S50000x1 (normOf (F := F) (Wp (Proc.devRef .tc main_arg2))) shapeCasts_S50000_S50000x1 := by
  after_results_simp
  rfl

set_option maxHeartbeats 4000000 in
theorem pre_v34 (Wp : Valuation τ sig (Elt F)) :
    StableHlo.after hostOps0_4 (StableHlo.after hostOps0_3 (StableHlo.after hostOps0_2 (StableHlo.after hostOps0_1 (StableHlo.after hostOps0 Wp)))) (Proc.devRef .tc main_v34)
      = shapeCast S1x128 (Wp (Proc.devRef .tc main_arg5)) shapeCasts_S128_S1x128 := by
  after_results_simp
  rfl

set_option maxHeartbeats 4000000 in
theorem pre_v17 (Wp : Valuation τ sig (Elt F)) :
    StableHlo.after hostOps0_4 (StableHlo.after hostOps0_3 (StableHlo.after hostOps0_2 (StableHlo.after hostOps0_1 (StableHlo.after hostOps0 Wp)))) (Proc.devRef .tc main_v17)
      = normOf (F := F) (Wp (Proc.devRef .tc main_arg1)) := by
  after_results_simp
  rfl

set_option maxHeartbeats 4000000 in
theorem pre_v19 (Wp : Valuation τ sig (Elt F)) :
    StableHlo.after hostOps0_4 (StableHlo.after hostOps0_3 (StableHlo.after hostOps0_2 (StableHlo.after hostOps0_1 (StableHlo.after hostOps0 Wp)))) (Proc.devRef .tc main_v19)
      = normOf (F := F) (Wp (Proc.devRef .tc main_arg2)) := by
  after_results_simp
  rfl

set_option maxHeartbeats 4000000 in
theorem pre_arg1 (Wp : Valuation τ sig (Elt F)) :
    StableHlo.after hostOps0_4 (StableHlo.after hostOps0_3 (StableHlo.after hostOps0_2 (StableHlo.after hostOps0_1 (StableHlo.after hostOps0 Wp)))) (Proc.devRef .tc main_arg1) = Wp (Proc.devRef .tc main_arg1) := by
  after_results_simp

set_option maxHeartbeats 4000000 in
theorem pre_arg2 (Wp : Valuation τ sig (Elt F)) :
    StableHlo.after hostOps0_4 (StableHlo.after hostOps0_3 (StableHlo.after hostOps0_2 (StableHlo.after hostOps0_1 (StableHlo.after hostOps0 Wp)))) (Proc.devRef .tc main_arg2) = Wp (Proc.devRef .tc main_arg2) := by
  after_results_simp

set_option maxHeartbeats 4000000 in
theorem pre_arg4 (Wp : Valuation τ sig (Elt F)) :
    StableHlo.after hostOps0_4 (StableHlo.after hostOps0_3 (StableHlo.after hostOps0_2 (StableHlo.after hostOps0_1 (StableHlo.after hostOps0 Wp)))) (Proc.devRef .tc main_arg4) = Wp (Proc.devRef .tc main_arg4) := by
  after_results_simp

set_option maxHeartbeats 4000000 in
theorem pre_arg6 (Wp : Valuation τ sig (Elt F)) :
    StableHlo.after hostOps0_4 (StableHlo.after hostOps0_3 (StableHlo.after hostOps0_2 (StableHlo.after hostOps0_1 (StableHlo.after hostOps0 Wp)))) (Proc.devRef .tc main_arg6) = Wp (Proc.devRef .tc main_arg6) := by
  after_results_simp

set_option maxHeartbeats 4000000 in
theorem pre_arg7 (Wp : Valuation τ sig (Elt F)) :
    StableHlo.after hostOps0_4 (StableHlo.after hostOps0_3 (StableHlo.after hostOps0_2 (StableHlo.after hostOps0_1 (StableHlo.after hostOps0 Wp)))) (Proc.devRef .tc main_arg7) = Wp (Proc.devRef .tc main_arg7) := by
  after_results_simp

set_option maxHeartbeats 4000000 in
theorem pre_arg8 (Wp : Valuation τ sig (Elt F)) :
    StableHlo.after hostOps0_4 (StableHlo.after hostOps0_3 (StableHlo.after hostOps0_2 (StableHlo.after hostOps0_1 (StableHlo.after hostOps0 Wp)))) (Proc.devRef .tc main_arg8) = Wp (Proc.devRef .tc main_arg8) := by
  after_results_simp

set_option maxHeartbeats 4000000 in
theorem pre_arg9 (Wp : Valuation τ sig (Elt F)) :
    StableHlo.after hostOps0_4 (StableHlo.after hostOps0_3 (StableHlo.after hostOps0_2 (StableHlo.after hostOps0_1 (StableHlo.after hostOps0 Wp)))) (Proc.devRef .tc main_arg9) = Wp (Proc.devRef .tc main_arg9) := by
  after_results_simp

/-! ## Between the first and the second launch -/

set_option maxHeartbeats 4000000 in
theorem mid1_v48 (Wp : Valuation τ sig (Elt F)) :
    StableHlo.after hostOps1 Wp (Proc.devRef .tc main_v48)
      = aggOf (Wp (Proc.devRef .tc main_v35)) (Wp (Proc.devRef .tc main_v17)) (Wp (Proc.devRef .tc main_arg1)) (Wp (Proc.devRef .tc main_arg2)) := by
  after_results_simp
  rfl

set_option maxHeartbeats 4000000 in
theorem mid1_v49 (Wp : Valuation τ sig (Elt F)) :
    StableHlo.after hostOps1 Wp (Proc.devRef .tc main_v49)
      = shapeCast S50000x1 (Wp (Proc.devRef .tc main_v19)) shapeCasts_S50000_S50000x1 := by
  after_results_simp
  rfl

set_option maxHeartbeats 4000000 in
theorem mid1_v50 (Wp : Valuation τ sig (Elt F)) :
    StableHlo.after hostOps1 Wp (Proc.devRef .tc main_v50)
      = shapeCast S1x128 (Wp (Proc.devRef .tc main_arg7)) shapeCasts_S128_S1x128 := by
  after_results_simp
  rfl

set_option maxHeartbeats 4000000 in
theorem mid1_v17 (Wp : Valuation τ sig (Elt F)) :
    StableHlo.after hostOps1 Wp (Proc.devRef .tc main_v17) = Wp (Proc.devRef .tc main_v17) := by
  after_results_simp

set_option maxHeartbeats 4000000 in
theorem mid1_v19 (Wp : Valuation τ sig (Elt F)) :
    StableHlo.after hostOps1 Wp (Proc.devRef .tc main_v19) = Wp (Proc.devRef .tc main_v19) := by
  after_results_simp

set_option maxHeartbeats 4000000 in
theorem mid1_arg1 (Wp : Valuation τ sig (Elt F)) :
    StableHlo.after hostOps1 Wp (Proc.devRef .tc main_arg1) = Wp (Proc.devRef .tc main_arg1) := by
  after_results_simp

set_option maxHeartbeats 4000000 in
theorem mid1_arg2 (Wp : Valuation τ sig (Elt F)) :
    StableHlo.after hostOps1 Wp (Proc.devRef .tc main_arg2) = Wp (Proc.devRef .tc main_arg2) := by
  after_results_simp

set_option maxHeartbeats 4000000 in
theorem mid1_arg6 (Wp : Valuation τ sig (Elt F)) :
    StableHlo.after hostOps1 Wp (Proc.devRef .tc main_arg6) = Wp (Proc.devRef .tc main_arg6) := by
  after_results_simp

set_option maxHeartbeats 4000000 in
theorem mid1_arg8 (Wp : Valuation τ sig (Elt F)) :
    StableHlo.after hostOps1 Wp (Proc.devRef .tc main_arg8) = Wp (Proc.devRef .tc main_arg8) := by
  after_results_simp

set_option maxHeartbeats 4000000 in
theorem mid1_arg9 (Wp : Valuation τ sig (Elt F)) :
    StableHlo.after hostOps1 Wp (Proc.devRef .tc main_arg9) = Wp (Proc.devRef .tc main_arg9) := by
  after_results_simp

/-! ## Between the second and the third launch -/

set_option maxHeartbeats 4000000 in
theorem mid2_v64 (Wp : Valuation τ sig (Elt F)) :
    StableHlo.after hostOps2 Wp (Proc.devRef .tc main_v64)
      = aggOf (Wp (Proc.devRef .tc main_v51)) (Wp (Proc.devRef .tc main_v17)) (Wp (Proc.devRef .tc main_arg1)) (Wp (Proc.devRef .tc main_arg2)) := by
  after_results_simp
  rfl

set_option maxHeartbeats 4000000 in
theorem mid2_v65 (Wp : Valuation τ sig (Elt F)) :
    StableHlo.after hostOps2 Wp (Proc.devRef .tc main_v65)
      = shapeCast S50000x1 (Wp (Proc.devRef .tc main_v19)) shapeCasts_S50000_S50000x1 := by
  after_results_simp
  rfl

set_option maxHeartbeats 4000000 in
theorem mid2_v66 (Wp : Valuation τ sig (Elt F)) :
    StableHlo.after hostOps2 Wp (Proc.devRef .tc main_v66)
      = shapeCast S1x128 (Wp (Proc.devRef .tc main_arg9)) shapeCasts_S128_S1x128 := by
  after_results_simp
  rfl

set_option maxHeartbeats 4000000 in
theorem mid2_arg8 (Wp : Valuation τ sig (Elt F)) :
    StableHlo.after hostOps2 Wp (Proc.devRef .tc main_arg8) = Wp (Proc.devRef .tc main_arg8) := by
  after_results_simp

end Cert.Gcn.Fold

end
-- ==== Proof.Net.lean ====
/-
  The network both programs compute, as one function of the ten argument arrays on the extended reals: the embedding
  lookup, then three times a layer — the aggregation along the edges followed by the dense layer with the destination
  norm as the per-row factor.  Here the dense layer is the index-by-index function; the kernel's launches and the
  reference's host operations are both read as it.
-/
import proofs.«111845_j40192303956494_1_alg».proof.Proof.HostSpec
import proofs.«111845_j40192303956494_1_alg».proof.Proof.DenseSpec

noncomputable section

namespace Cert.Gcn

open Idealize.ShloMosaic Cert.KernelIdeal Cert.KernelIdeal.Gen

/-- One layer: aggregate `h` along the edges, then the dense layer, the destination norm laid out as a column and the
    bias as a row. -/
def gcn (h : (⟨S50000x128, .f32⟩ : BufTy).Contents (Elt Ideal)) (ns nd : (⟨S50000, .f32⟩ : BufTy).Contents (Elt Ideal))
    (src dst : (⟨S800000, .i32⟩ : BufTy).Contents (Elt Ideal)) (W : (⟨S128x128, .f32⟩ : BufTy).Contents (Elt Ideal))
    (b : (⟨S128, .f32⟩ : BufTy).Contents (Elt Ideal)) : (⟨S50000x128, .f32⟩ : BufTy).Contents (Elt Ideal) :=
  layer (n := 50000) (K := 128) (d := 128) (aggOf h ns src dst) (shapeCast S50000x1 nd shapeCasts_S50000_S50000x1) W
    (shapeCast S1x128 b shapeCasts_S128_S1x128)

/-- The three layers over the embedding lookup. -/
def net (batch : (⟨S50000, .i32⟩ : BufTy).Contents (Elt Ideal)) (src dst : (⟨S800000, .i32⟩ : BufTy).Contents (Elt Ideal))
    (emb : (⟨S50000x128, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    (⟨S50000x128, .f32⟩ : BufTy).Contents (Elt Ideal) :=
  gcn (gcn (gcn (embed emb batch) (normOf src) (normOf dst) src dst W1 b1) (normOf src) (normOf dst) src dst W2 b2)
    (normOf src) (normOf dst) src dst W3 b3

end Cert.Gcn

end
-- ==== Proof.KernelValue.lean ====
/-
  The kernel program's result, read as the network.  The buffer contents at each boundary between @main's segments are
  followed from the launch to the return: a stretch of host operations computes its values from what the buffers held
  before it, a launch leaves its output array at the dense layer of the arrays it found and touches nothing else, and the
  degree norms, the edge lists, the weights and the biases pass through every later segment untouched.
-/
import proofs.«111845_j40192303956494_1_alg».proof.Proof.Gen.KernelIdeal.Frame
import proofs.«111845_j40192303956494_1_alg».proof.Proof.Region0
import proofs.«111845_j40192303956494_1_alg».proof.Proof.Region1
import proofs.«111845_j40192303956494_1_alg».proof.Proof.Region2
import proofs.«111845_j40192303956494_1_alg».proof.Proof.Fold
import proofs.«111845_j40192303956494_1_alg».proof.Proof.Net

noncomputable section

namespace Cert.Gcn.KValue

open Cert.KernelIdeal Cert.KernelIdeal.Gen Idealize.ShloMosaic Idealize.ShloMosaic.TcCoe Idealize.SL.Sem Cert.Gcn

variable (m : (ℓ : Loc nD τ sig) → Buf (Elt Ideal) ℓ) (ρ : Dev nD → PrngReg) (c : Dev nD)

/-! ## The values the segments compute, as functions of the argument arrays -/

/-- The source and destination degree norms. -/
abbrev ns : (⟨S50000, .f32⟩ : BufTy).Contents (Elt Ideal) := normOf (F := Ideal) (m ((c : Thread nD τ).loc main_arg1))
abbrev nd : (⟨S50000, .f32⟩ : BufTy).Contents (Elt Ideal) := normOf (F := Ideal) (m ((c : Thread nD τ).loc main_arg2))
/-- The node features after 0, 1, 2 and 3 layers. -/
abbrev h0 : (⟨S50000x128, .f32⟩ : BufTy).Contents (Elt Ideal) := embed (m ((c : Thread nD τ).loc main_arg3)) (m ((c : Thread nD τ).loc main_arg0))
abbrev h1 : (⟨S50000x128, .f32⟩ : BufTy).Contents (Elt Ideal) := gcn (h0 m c) (ns m c) (nd m c) (m ((c : Thread nD τ).loc main_arg1)) (m ((c : Thread nD τ).loc main_arg2)) (m ((c : Thread nD τ).loc main_arg4)) (m ((c : Thread nD τ).loc main_arg5))
abbrev h2 : (⟨S50000x128, .f32⟩ : BufTy).Contents (Elt Ideal) := gcn (h1 m c) (ns m c) (nd m c) (m ((c : Thread nD τ).loc main_arg1)) (m ((c : Thread nD τ).loc main_arg2)) (m ((c : Thread nD τ).loc main_arg6)) (m ((c : Thread nD τ).loc main_arg7))
abbrev h3 : (⟨S50000x128, .f32⟩ : BufTy).Contents (Elt Ideal) := gcn (h2 m c) (ns m c) (nd m c) (m ((c : Thread nD τ).loc main_arg1)) (m ((c : Thread nD τ).loc main_arg2)) (m ((c : Thread nD τ).loc main_arg8)) (m ((c : Thread nD τ).loc main_arg9))

/-! ## At the first launch's entry -/

theorem w5_v32 : W5 m ρ c (Proc.devRef .tc main_v32) = aggOf (h0 m c) (ns m c) (m ((c : Thread nD τ).loc main_arg1)) (m ((c : Thread nD τ).loc main_arg2)) := Fold.pre_v32 (W0 m ρ c)
theorem w5_v33 : W5 m ρ c (Proc.devRef .tc main_v33) = shapeCast S50000x1 (nd m c) shapeCasts_S50000_S50000x1 := Fold.pre_v33 (W0 m ρ c)
theorem w5_v34 : W5 m ρ c (Proc.devRef .tc main_v34) = shapeCast S1x128 (m ((c : Thread nD τ).loc main_arg5)) shapeCasts_S128_S1x128 := Fold.pre_v34 (W0 m ρ c)
theorem w5_v17 : W5 m ρ c (Proc.devRef .tc main_v17) = ns m c := Fold.pre_v17 (W0 m ρ c)
theorem w5_v19 : W5 m ρ c (Proc.devRef .tc main_v19) = nd m c := Fold.pre_v19 (W0 m ρ c)
theorem w5_arg1 : W5 m ρ c (Proc.devRef .tc main_arg1) = (m ((c : Thread nD τ).loc main_arg1)) := Fold.pre_arg1 (W0 m ρ c)
theorem w5_arg2 : W5 m ρ c (Proc.devRef .tc main_arg2) = (m ((c : Thread nD τ).loc main_arg2)) := Fold.pre_arg2 (W0 m ρ c)
theorem w5_arg4 : W5 m ρ c (Proc.devRef .tc main_arg4) = (m ((c : Thread nD τ).loc main_arg4)) := Fold.pre_arg4 (W0 m ρ c)
theorem w5_arg6 : W5 m ρ c (Proc.devRef .tc main_arg6) = (m ((c : Thread nD τ).loc main_arg6)) := Fold.pre_arg6 (W0 m ρ c)
theorem w5_arg7 : W5 m ρ c (Proc.devRef .tc main_arg7) = (m ((c : Thread nD τ).loc main_arg7)) := Fold.pre_arg7 (W0 m ρ c)
theorem w5_arg8 : W5 m ρ c (Proc.devRef .tc main_arg8) = (m ((c : Thread nD τ).loc main_arg8)) := Fold.pre_arg8 (W0 m ρ c)
theorem w5_arg9 : W5 m ρ c (Proc.devRef .tc main_arg9) = (m ((c : Thread nD τ).loc main_arg9)) := Fold.pre_arg9 (W0 m ρ c)

/-! ## At the first launch's exit -/

theorem w6_v35 : W6 m ρ c (Proc.devRef .tc main_v35) = h1 m c := by
  refine (W6_arr m ρ c 4).trans ((R0.final (V5 m ρ) c).trans ?_)
  show layer (n := 50000) (K := 128) (d := 128) (W5 m ρ c (Proc.devRef .tc main_v32)) (W5 m ρ c (Proc.devRef .tc main_v33)) (W5 m ρ c (Proc.devRef .tc main_arg4)) (W5 m ρ c (Proc.devRef .tc main_v34)) = _
  rw [w5_v32, w5_v33, w5_arg4, w5_v34]
  rfl
theorem w6_v17 : W6 m ρ c (Proc.devRef .tc main_v17) = ns m c := (W6_of_ne m ρ c main_v17 (by decide)).trans (w5_v17 m ρ c)
theorem w6_v19 : W6 m ρ c (Proc.devRef .tc main_v19) = nd m c := (W6_of_ne m ρ c main_v19 (by decide)).trans (w5_v19 m ρ c)
theorem w6_arg1 : W6 m ρ c (Proc.devRef .tc main_arg1) = (m ((c : Thread nD τ).loc main_arg1)) := (W6_of_ne m ρ c main_arg1 (by decide)).trans (w5_arg1 m ρ c)
theorem w6_arg2 : W6 m ρ c (Proc.devRef .tc main_arg2) = (m ((c : Thread nD τ).loc main_arg2)) := (W6_of_ne m ρ c main_arg2 (by decide)).trans (w5_arg2 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)

/-! ## At the second launch's entry -/

theorem w7_v48 : W7 m ρ c (Proc.devRef .tc main_v48) = aggOf (h1 m c) (ns m c) (m ((c : Thread nD τ).loc main_arg1)) (m ((c : Thread nD τ).loc main_arg2)) := by
  refine (Fold.mid1_v48 (W6 m ρ c)).trans ?_
  rw [w6_v35, w6_v17, w6_arg1, w6_arg2]
theorem w7_v49 : W7 m ρ c (Proc.devRef .tc main_v49) = shapeCast S50000x1 (nd m c) shapeCasts_S50000_S50000x1 := by
  refine (Fold.mid1_v49 (W6 m ρ c)).trans ?_
  rw [w6_v19]
theorem w7_v50 : W7 m ρ c (Proc.devRef .tc main_v50) = shapeCast S1x128 (m ((c : Thread nD τ).loc main_arg7)) shapeCasts_S128_S1x128 := by
  refine (Fold.mid1_v50 (W6 m ρ c)).trans ?_
  rw [w6_arg7]
theorem w7_v17 : W7 m ρ c (Proc.devRef .tc main_v17) = ns m c := (Fold.mid1_v17 (W6 m ρ c)).trans (w6_v17 m ρ c)
theorem w7_v19 : W7 m ρ c (Proc.devRef .tc main_v19) = nd m c := (Fold.mid1_v19 (W6 m ρ c)).trans (w6_v19 m ρ c)
theorem w7_arg1 : W7 m ρ c (Proc.devRef .tc main_arg1) = (m ((c : Thread nD τ).loc main_arg1)) := (Fold.mid1_arg1 (W6 m ρ c)).trans (w6_arg1 m ρ c)
theorem w7_arg2 : W7 m ρ c (Proc.devRef .tc main_arg2) = (m ((c : Thread nD τ).loc main_arg2)) := (Fold.mid1_arg2 (W6 m ρ c)).trans (w6_arg2 m ρ c)
theorem w7_arg6 : W7 m ρ c (Proc.devRef .tc main_arg6) = (m ((c : Thread nD τ).loc main_arg6)) := (Fold.mid1_arg6 (W6 m ρ c)).trans (w6_arg6 m ρ c)
theorem w7_arg8 : W7 m ρ c (Proc.devRef .tc main_arg8) = (m ((c : Thread nD τ).loc main_arg8)) := (Fold.mid1_arg8 (W6 m ρ c)).trans (w6_arg8 m ρ c)
theorem w7_arg9 : W7 m ρ c (Proc.devRef .tc main_arg9) = (m ((c : Thread nD τ).loc main_arg9)) := (Fold.mid1_arg9 (W6 m ρ c)).trans (w6_arg9 m ρ c)

/-! ## At the second launch's exit -/

theorem w8_v51 : W8 m ρ c (Proc.devRef .tc main_v51) = h2 m c := by
  refine (W8_arr m ρ c 4).trans ((R1.final (V7 m ρ) c).trans ?_)
  show layer (n := 50000) (K := 128) (d := 128) (W7 m ρ c (Proc.devRef .tc main_v48)) (W7 m ρ c (Proc.devRef .tc main_v49)) (W7 m ρ c (Proc.devRef .tc main_arg6)) (W7 m ρ c (Proc.devRef .tc main_v50)) = _
  rw [w7_v48, w7_v49, w7_arg6, w7_v50]
  rfl
theorem w8_v17 : W8 m ρ c (Proc.devRef .tc main_v17) = ns m c := (W8_of_ne m ρ c main_v17 (by decide)).trans (w7_v17 m ρ c)
theorem w8_v19 : W8 m ρ c (Proc.devRef .tc main_v19) = nd m c := (W8_of_ne m ρ c main_v19 (by decide)).trans (w7_v19 m ρ c)
theorem w8_arg1 : W8 m ρ c (Proc.devRef .tc main_arg1) = (m ((c : Thread nD τ).loc main_arg1)) := (W8_of_ne m ρ c main_arg1 (by decide)).trans (w7_arg1 m ρ c)
theorem w8_arg2 : W8 m ρ c (Proc.devRef .tc main_arg2) = (m ((c : Thread nD τ).loc main_arg2)) := (W8_of_ne m ρ c main_arg2 (by decide)).trans (w7_arg2 m ρ c)
theorem w8_arg8 : W8 m ρ c (Proc.devRef .tc main_arg8) = (m ((c : Thread nD τ).loc main_arg8)) := (W8_of_ne m ρ c main_arg8 (by decide)).trans (w7_arg8 m ρ c)
theorem w8_arg9 : W8 m ρ c (Proc.devRef .tc main_arg9) = (m ((c : Thread nD τ).loc main_arg9)) := (W8_of_ne m ρ c main_arg9 (by decide)).trans (w7_arg9 m ρ c)

/-! ## At the third launch's entry -/

theorem w9_v64 : W9 m ρ c (Proc.devRef .tc main_v64) = aggOf (h2 m c) (ns m c) (m ((c : Thread nD τ).loc main_arg1)) (m ((c : Thread nD τ).loc main_arg2)) := by
  refine (Fold.mid2_v64 (W8 m ρ c)).trans ?_
  rw [w8_v51, w8_v17, w8_arg1, w8_arg2]
theorem w9_v65 : W9 m ρ c (Proc.devRef .tc main_v65) = shapeCast S50000x1 (nd m c) shapeCasts_S50000_S50000x1 := by
  refine (Fold.mid2_v65 (W8 m ρ c)).trans ?_
  rw [w8_v19]
theorem w9_v66 : W9 m ρ c (Proc.devRef .tc main_v66) = shapeCast S1x128 (m ((c : Thread nD τ).loc main_arg9)) shapeCasts_S128_S1x128 := by
  refine (Fold.mid2_v66 (W8 m ρ c)).trans ?_
  rw [w8_arg9]
theorem w9_arg8 : W9 m ρ c (Proc.devRef .tc main_arg8) = (m ((c : Thread nD τ).loc main_arg8)) := (Fold.mid2_arg8 (W8 m ρ c)).trans (w8_arg8 m ρ c)

/-! ## At the return -/

/-- The result buffer at @main's return holds the network of the argument arrays. -/
theorem out_eq : W10 m ρ c (Proc.devRef .tc main_v67)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 4).trans ((R2.final (V9 m ρ) c).trans ?_)
  show layer (n := 50000) (K := 128) (d := 128) (W9 m ρ c (Proc.devRef .tc main_v64)) (W9 m ρ c (Proc.devRef .tc main_v65)) (W9 m ρ c (Proc.devRef .tc main_arg8)) (W9 m ρ c (Proc.devRef .tc main_v66)) = _
  rw [w9_v64, w9_v65, w9_arg8, w9_v66]
  rfl

end Cert.Gcn.KValue

end
-- ==== Proof.RefValue.lean ====
/-
  The reference's result, read as the network: its host operations are, layer by layer, the same aggregation and then
  the dense layer spelt with a `dot_general`, the destination norm a vector laid out as a column and broadcast along the
  rows, the bias a vector laid out as a row and broadcast down the rows, the rectifier a maximum against a broadcast
  zero — which at every entry is the dense layer's function.
-/
import proofs.«111845_j40192303956494_1_alg».proof.Proof.Gen.ReferenceIdeal.Run
import proofs.«111845_j40192303956494_1_alg».proof.Proof.Net

noncomputable section

namespace Cert.Gcn.Ref

open Idealize.ShloMosaic Idealize.ShloMosaic.TcCoe Idealize.SL.Sem Cert.ReferenceIdeal Cert.ReferenceIdeal.Gen Cert.Gcn

variable {F : FTy → Type} [FloatOps F]

/-- The reference's dense part of a layer, as its host operations spell it. -/
def dense (agg : (⟨S50000x128, .f32⟩ : BufTy).Contents (Elt F)) (nd : (⟨S50000, .f32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  maximumf (addf (Host.dotGeneral dot_S50000x128_S128x128_S50000x128_1_0_0_1_n_n none (mulf agg (broadcastInDim S50000x128 ![0, 1] bcast_S50000x1_S50000x128_0_1 (broadcastInDim S50000x1 ![0] bcast_S50000_S50000x1_0 nd))) W) (broadcastInDim S50000x128 ![0, 1] bcast_S1x128_S50000x128_0_1 (broadcastInDim S1x128 ![1] bcast_S128_S1x128_1 b))) (broadcastInDim S50000x128 ![] bcast_S_S50000x128 (constant (F := F) S_ .f32 0x00000000#32))

/-- One layer as the reference spells it. -/
def gcnHost (h : (⟨S50000x128, .f32⟩ : BufTy).Contents (Elt F)) (ns nd : (⟨S50000, .f32⟩ : BufTy).Contents (Elt F))
    (src dst : (⟨S800000, .i32⟩ : BufTy).Contents (Elt F)) (W : (⟨S128x128, .f32⟩ : BufTy).Contents (Elt F))
    (b : (⟨S128, .f32⟩ : BufTy).Contents (Elt F)) : (⟨S50000x128, .f32⟩ : BufTy).Contents (Elt F) :=
  dense (aggOf h ns src dst) nd W b

/-- The three layers as the reference spells them. -/
def netHost (batch : (⟨S50000, .i32⟩ : BufTy).Contents (Elt F)) (src dst : (⟨S800000, .i32⟩ : BufTy).Contents (Elt F))
    (emb : (⟨S50000x128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) :
    (⟨S50000x128, .f32⟩ : BufTy).Contents (Elt F) :=
  gcnHost (gcnHost (gcnHost (embed emb batch) (normOf src) (normOf dst) src dst W1 b1) (normOf src) (normOf dst) src dst W2 b2)
    (normOf src) (normOf dst) src dst W3 b3

set_option maxRecDepth 8192 in
set_option maxHeartbeats 4000000 in
/-- The reference run's result term is the three layers of the argument arrays. -/
theorem res_eq (m : (ℓ : Loc nD τ sig) → Buf (Elt F) ℓ) (c : Dev nD) :
    Cert.ReferenceIdeal.Value.res_main_v82 m c
      = netHost (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v82
  rfl

/-- On the extended reals the reference's dense part is the dense layer, entry by entry. -/
theorem dense_eq (agg : (⟨S50000x128, .f32⟩ : BufTy).Contents (Elt Ideal)) (nd : (⟨S50000, .f32⟩ : BufTy).Contents (Elt Ideal))
    (W : (⟨S128x128, .f32⟩ : BufTy).Contents (Elt Ideal)) (b : (⟨S128, .f32⟩ : BufTy).Contents (Elt Ideal)) :
    dense (F := Ideal) agg nd W b
      = layer (n := 50000) (K := 128) (d := 128) agg (shapeCast Cert.KernelIdeal.S50000x1 nd Cert.KernelIdeal.Facts₀.shapeCasts_S50000_S50000x1) W
          (shapeCast Cert.KernelIdeal.S1x128 b Cert.KernelIdeal.Facts₀.shapeCasts_S128_S1x128) := by
  funext i
  unfold dense
  exact host_layer (n := 50000) (K := 128) (d := 128) agg nd W b _ _ _ _ _ _ _ i

/-- So one layer as the reference spells it is the layer. -/
theorem gcnHost_eq (h : (⟨S50000x128, .f32⟩ : BufTy).Contents (Elt Ideal)) (ns nd : (⟨S50000, .f32⟩ : BufTy).Contents (Elt Ideal))
    (src dst : (⟨S800000, .i32⟩ : BufTy).Contents (Elt Ideal)) (W : (⟨S128x128, .f32⟩ : BufTy).Contents (Elt Ideal))
    (b : (⟨S128, .f32⟩ : BufTy).Contents (Elt Ideal)) : gcnHost (F := Ideal) h ns nd src dst W b = gcn h ns nd src dst W b := by
  unfold gcnHost gcn
  exact dense_eq _ nd W b

/-- And the three layers as the reference spells them are the network. -/
theorem netHost_eq (batch : (⟨S50000, .i32⟩ : BufTy).Contents (Elt Ideal)) (src dst : (⟨S800000, .i32⟩ : BufTy).Contents (Elt Ideal))
    (emb : (⟨S50000x128, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    netHost (F := Ideal) batch src dst emb W1 b1 W2 b2 W3 b3 = net batch src dst emb W1 b1 W2 b2 W3 b3 := by
  unfold netHost net
  rw [gcnHost_eq, gcnHost_eq, gcnHost_eq]

end Cert.Gcn.Ref

end
-- ==== Proof.lean ====
/-
  A three-layer graph convolution — an embedding lookup, symmetric degree normalisation, and per layer a gather of the
  source-scaled features along 800000 edges, a segment sum into the 50000 destination nodes and a dense layer
  relu((agg · norm_dst) · W + b) — computed two ways: with the dense layer of each of the three layers as a Pallas launch
  over 25 blocks of 2000 rows (the scaled block rounded to bf16 before the matrix product), and entirely by host
  operations.  On the extended reals a change of float format is the identity and a matrix product is a finite sum in a
  commutative monoid, so a launch's output array is the dense layer of the arrays it found, block by block, and the
  reference's dot_general, broadcasts and maximum are the same function entry by entry; everything around the dense
  layers is the same operations on both sides and is never opened.  No entry is asked to be finite.

  The frames of the two kernel programs are the generated ones; the reference's is its generated run with the result
  dropped.  The idealisation rewrote nothing, so there is nothing to preserve.  For the value claim the kernel
  program's run is re-stated with the result buffer named, its contents followed through the ten segments of @main,
  and set beside the reference's run.
-/
import proofs.«111845_j40192303956494_1_alg».proof.Defs
import proofs.«111845_j40192303956494_1_alg».proof.Proof.Gen.Kernel
import proofs.«111845_j40192303956494_1_alg».proof.Proof.Gen.Kernel.Skeleton
import proofs.«111845_j40192303956494_1_alg».proof.Proof.Gen.Kernel.Launch
import proofs.«111845_j40192303956494_1_alg».proof.Proof.Gen.Kernel.Points
import proofs.«111845_j40192303956494_1_alg».proof.Proof.Gen.Kernel.Frame
import proofs.«111845_j40192303956494_1_alg».proof.Proof.Gen.KernelIdeal
import proofs.«111845_j40192303956494_1_alg».proof.Proof.Gen.KernelIdeal.Skeleton
import proofs.«111845_j40192303956494_1_alg».proof.Proof.Gen.KernelIdeal.Launch
import proofs.«111845_j40192303956494_1_alg».proof.Proof.Gen.KernelIdeal.Points
import proofs.«111845_j40192303956494_1_alg».proof.Proof.Gen.KernelIdeal.Frame
import proofs.«111845_j40192303956494_1_alg».proof.Proof.Gen.ReferenceIdeal
import proofs.«111845_j40192303956494_1_alg».proof.Proof.Gen.Pre_finite_inputs
import proofs.«111845_j40192303956494_1_alg».proof.Proof.Gen.ReferenceIdeal.Run
import proofs.«111845_j40192303956494_1_alg».proof.Proof.KernelRun
import proofs.«111845_j40192303956494_1_alg».proof.Proof.KernelValue
import proofs.«111845_j40192303956494_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the ten arguments both programs end with the network of those arguments in their result
    buffer: the kernel program by following its segments, the reference by reading its host operations as the layers. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Gcn.KValue.out_eq m ρ c), (h c).2⟩) (Cert.KernelIdeal.RunOut.run_out m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.Gcn.Ref.res_eq, Cert.Gcn.Ref.netHost_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
